-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) (main_arg1 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S16x1024x1024 : Shape := ⟨3, ![16, 1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x1024x1024.size a
  hwx0_1 : ∀ i : grid0.Coords, EltTy.bits .f32 = 32 ∨ (Rect.block (s := S16x1024x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x1024x1024.size a
  hwx0_2 : ∀ i : grid0.Coords, EltTy.bits .f32 = 32 ∨ (Rect.block (s := S16x1024x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x1024x1024.size a
  hwx0_3 : ∀ i : grid0.Coords, EltTy.bits .f32 = 32 ∨ (Rect.block (s := S16x1024x1024) S1x512x1024.size (cc0_transform_3 i) (hinb0_3 i)).WholeWords (EltTy.packing .f32)

variable [Facts₀]

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S_, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S16x1024, .i1⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .i1⟩
  | .hbm, ⟨12, _⟩ => ⟨S16x1024, .i1⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024x1, .f32⟩
  | .hbm, ⟨17, _⟩ => ⟨S16x1024x1024, .f32⟩
  | .hbm, ⟨18, _⟩ => ⟨S16x1024x1024, .f32⟩
  | .hbm, ⟨19, _⟩ => ⟨S_, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S16x1024, .i1⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .i1⟩
  | .hbm, ⟨29, _⟩ => ⟨S16x1024, .i1⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024x1, .f32⟩
  | .hbm, ⟨34, _⟩ => ⟨S16x1024x1024, .f32⟩
  | .hbm, ⟨35, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call2_v0 : Ref sig .tc := ⟨.hbm, 25, rfl⟩
abbrev main_call2_cst : Ref sig .tc := ⟨.hbm, 26, rfl⟩
abbrev main_call2_v1 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)

variable [Facts₀]

class Facts : Prop extends Facts₀ where

variable [Facts]
-- ==== Proof.RowNormalize.lean ====
/-
  Row normalisation of a batch of square matrices, as ONE function of the array, index by index.

  For an array x of shape [16, 1024, 1024], entry (b, r, c) of the result is

      g(1 / d) · x[b, r, c],        d = Σ_k x[b, r, k]   (the degree of row r of matrix b),

  on the extended reals: the quotient is the extended reals' own (1 / 0 = +∞, 1 / ±∞ = 0), and g sends the
  values that are not finite numbers to zero — g(q) = 0 when q ≠ q or |q| = +∞, and g(q) = q otherwise. On a
  linear order q ≠ q never holds, so g only removes ±∞ (the reciprocal of an empty row); it is kept in the
  two-test form in which both programs compute it.

  Nothing here mentions a program: the two programs are each shown to compute this function elsewhere.
-/
import Idealize.ShloMosaic.Lib.ValueIdx
import Idealize.ShloMosaic.PureOps.Ideal.Laws

noncomputable section

namespace Cert.RowNormalize

open Idealize.ShloMosaic Idealize.ShloMosaic.ValueIdx

/-- `g`: a value that differs from itself, or whose absolute value is +∞, becomes zero; any other value is kept. -/
def finiteOrZero (q : EReal) : EReal :=
  Scalar.select
    (IntOp.ori (Ideal.cmp .one q q) (Ideal.cmp .oeq (max q (-q)) (Ideal.ofBits .f32 0x7F800000#32)))
    (Ideal.ofBits .f32 0x00000000#32) q

/-- The guarded reciprocal of a degree `d`: `g(1 / d)`. -/
def guardedInv (d : EReal) : EReal :=
  finiteOrZero (Ideal.div (Ideal.ofBits .f32 0x3F800000#32) d)

/-- The shape of a batch of 16 matrices of 1024 rows and 1024 columns. -/
abbrev Batch : Shape := ⟨3, ![16, 1024, 1024]⟩

/-- Every row of every matrix scaled by the guarded reciprocal of its sum. -/
def rowNormalize (x : Batch.Idx → EReal) : Batch.Idx → EReal := fun i =>
  guardedInv (∑ k : Fin 1024, x (ix3 (i 0 : Fin 16) (i 1 : Fin 1024) k)) * x i

/-- The same, with the index given by its coordinates. -/
theorem rowNormalize_ix3 (x : Batch.Idx → EReal) (b : Fin 16) (r : Fin 1024) (c : Fin 1024) :
    rowNormalize x (ix3 b r c) = guardedInv (∑ k : Fin 1024, x (ix3 b r k)) * x (ix3 b r c) := rfl

end Cert.RowNormalize

end
-- ==== Proof.ReferenceRows.lean ====
/-
  The reference computes the row normalisation.

  The reference sums each matrix along its last axis (from the zero the sum starts at), takes the reciprocal of each
  degree, replaces the reciprocals that differ from themselves or are infinite in absolute value by zero, lays the
  [16, 1024] result along the columns ([16, 1024] → [16, 1024, 1] → [16, 1024, 1024]) and multiplies by the matrix:
  at (b, r, c) that is g(1 / (0 + Σ_k x[b, r, k])) · x[b, r, c]. The zero the sum starts at is the additive unit, the
  host's quotient and absolute value are the extended reals' own, and "differs from itself" is the same test whether
  or not the comparison is the unordered one, since nothing is unordered on a linear order. Both results are this one
  function, of the first and of the second argument.
-/
import proofs.«114468_j37323265803068_2_alg».proof.Proof.Gen.ReferenceIdeal.Read
import proofs.«114468_j37323265803068_2_alg».proof.Proof.RowNormalize

noncomputable section

namespace Cert.ReferenceRows

open Idealize.ShloMosaic Idealize.ShloMosaic.ValueIdx Cert.ReferenceIdeal Cert.ReferenceIdeal.Read Cert.RowNormalize

/-- The element the first result's row sum reads, through the two broadcasts: (b, r, k) for the entry (b, r, c). -/
theorem row_index0 (i : S16x1024x1024.Idx) (k : Fin 1024) :
    idx_main_v0 (idx_main_v8 (idx_main_v9 i)) k = ix3 (i 0 : Fin 16) (i 1 : Fin 1024) k :=
  funext fun a => by match a with | ⟨0, _⟩ => rfl | ⟨1, _⟩ => rfl | ⟨2, _⟩ => rfl

/-- The same for the second result. -/
theorem row_index1 (i : S16x1024x1024.Idx) (k : Fin 1024) :
    idx_main_v11 (idx_main_v19 (idx_main_v20 i)) k = ix3 (i 0 : Fin 16) (i 1 : Fin 1024) k :=
  funext fun a => by match a with | ⟨0, _⟩ => rfl | ⟨1, _⟩ => rfl | ⟨2, _⟩ => rfl

/-- The first result is the row normalisation of the first argument. -/
theorem first_eq (x0 : (⟨S16x1024x1024, .f32⟩ : BufTy).Contents (Elt Ideal)) :
    val_main_v10 (F := Ideal) x0 = rowNormalize x0 := by
  funext i
  simp only [val_main_v10_apply, val_main_v9_apply, val_main_v8_apply, val_main_v7_apply, val_main_v5_apply,
    val_main_v3_apply, val_main_v4_apply, val_main_call0_v0_apply, val_main_call0_v1_apply, val_main_call0_cst_apply,
    val_main_v6_apply, val_main_cst_1_apply, val_main_v2_apply, val_main_v1_apply, val_main_cst_0_apply,
    val_main_v0_apply, val_main_cst_apply, row_index0]
  simp only [rowNormalize, guardedInv, finiteOrZero, Ideal.ofBits_def, Ideal.ofBits_zero_f32, zero_add,
    Ideal.hostDivf_def, Ideal.hostAbsf_def, Ideal.cmpf_def, Ideal.absf_def, Ideal.mulf_def, Ideal.cmp]
  rfl

/-- The second result is the row normalisation of the second argument. -/
theorem second_eq (x1 : (⟨S16x1024x1024, .f32⟩ : BufTy).Contents (Elt Ideal)) :
    val_main_v21 (F := Ideal) x1 = rowNormalize x1 := by
  funext i
  simp only [val_main_v21_apply, val_main_v20_apply, val_main_v19_apply, val_main_v18_apply, val_main_v16_apply,
    val_main_v14_apply, val_main_v15_apply, val_main_call2_v0_apply, val_main_call2_v1_apply, val_main_call2_cst_apply,
    val_main_v17_apply, val_main_cst_4_apply, val_main_v13_apply, val_main_v12_apply, val_main_cst_3_apply,
    val_main_v11_apply, val_main_cst_2_apply, row_index1]
  simp only [rowNormalize, guardedInv, finiteOrZero, Ideal.ofBits_def, Ideal.ofBits_zero_f32, zero_add,
    Ideal.hostDivf_def, Ideal.hostAbsf_def, Ideal.cmpf_def, Ideal.absf_def, Ideal.mulf_def, Ideal.cmp]
  rfl

end Cert.ReferenceRows

end
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.KernelBlock.lean ====
/-
  What one grid point leaves in an output block, entry by entry.

  The body loads a [1, 512, 1024] block P of a matrix, sums each of its 512 rows over the 1024 lanes, takes the
  reciprocal of each sum, replaces the reciprocals that differ from themselves or are infinite in absolute value by
  zero, lays the resulting column along the lanes and multiplies by P. So the block it stores holds, at (0, p, q),

      g(1 / Σ_k P[0, p, k]) · P[0, p, q]:

  the row normalisation of the block's own rows. A block holds whole rows, which is why the block's row sum is the
  array's.
-/
import proofs.«114468_j37323265803068_2_alg».proof.Proof.Gen.KernelIdeal.Value
import proofs.«114468_j37323265803068_2_alg».proof.Proof.LibRowSumZero
import proofs.«114468_j37323265803068_2_alg».proof.Proof.RowNormalize

noncomputable section

namespace Cert.KernelBlock

open Cert.KernelIdeal Cert.KernelIdeal.Gen Idealize.ShloMosaic Idealize.ShloMosaic.ValueIdx Cert.RowNormalize

/-- The lane sum of a block read as a [512, 1024] matrix, at row `p`, is the sum of the block's row `p`. -/
theorem block_rowSum (P : Vec Ideal S1x512x1024 .f32) (p : Fin 512) :
    multiReduction (F := Ideal) .add [1] S512 (shapeCast S512x1024 P shapeCasts_S1x512x1024_S512x1024) 0x00000000#32
      reduces_S512x1024_S512 (.inl rfl) rfl (ix1 p) = ∑ k : Fin 1024, P (ix3 (0 : Fin 1) p k) :=
  (Cert.RowSumZero.rowSum_zero_apply _ reduces_S512x1024_S512 (.inl rfl) rfl p).trans
    (Finset.sum_congr rfl fun k _ => shapeCast_apply _ _ (ix2 p k) (ix3 (0 : Fin 1) p k)
      (by rw [Shape.rowMajor_val_three, Shape.rowMajor_val_two]
          show (0 * 512 + p.val) * 1024 + k.val = p.val * 1024 + k.val; omega))

/-- The first output's block, entry by entry: the row normalisation of the loaded block's rows. -/
theorem first_block (P : Vec Ideal S1x512x1024 .f32) (p : Fin 512) (q : Fin 1024) :
    Value.E2 (F := Ideal) P (ix3 (0 : Fin 1) p q)
      = guardedInv (∑ k : Fin 1024, P (ix3 (0 : Fin 1) p k)) * P (ix3 (0 : Fin 1) p q) := by
  have hrow : ∀ f : S1x512x1024.Idx → S512.Idx, f (ix3 (0 : Fin 1) p q) = ix1 p →
      multiReduction (F := Ideal) .add [1] S512 (shapeCast S512x1024 P shapeCasts_S1x512x1024_S512x1024) 0x00000000#32
        reduces_S512x1024_S512 (.inl rfl) rfl (f (ix3 (0 : Fin 1) p q)) = ∑ k : Fin 1024, P (ix3 (0 : Fin 1) p k) :=
    fun f hf => by rw [hf]; exact block_rowSum P p
  have h0 := hrow Value.ix2_0 (funext fun a => by match a with | ⟨0, _⟩ => rfl)
  have h4 : Value.ix2_4 (ix3 (0 : Fin 1) p q) = ix3 (0 : Fin 1) p q :=
    funext fun a => by match a with | ⟨0, _⟩ => rfl | ⟨1, _⟩ => rfl | ⟨2, _⟩ => rfl
  show FloatOps.mulf _ _ = _
  rw [h0, h4]
  rfl

/-- The second output's block: the same function of the second input's block. -/
theorem second_block (P : Vec Ideal S1x512x1024 .f32) (p : Fin 512) (q : Fin 1024) :
    Value.E3 (F := Ideal) P (ix3 (0 : Fin 1) p q)
      = guardedInv (∑ k : Fin 1024, P (ix3 (0 : Fin 1) p k)) * P (ix3 (0 : Fin 1) p q) := by
  have hrow : ∀ f : S1x512x1024.Idx → S512.Idx, f (ix3 (0 : Fin 1) p q) = ix1 p →
      multiReduction (F := Ideal) .add [1] S512 (shapeCast S512x1024 P shapeCasts_S1x512x1024_S512x1024) 0x00000000#32
        reduces_S512x1024_S512 (.inl rfl) rfl (f (ix3 (0 : Fin 1) p q)) = ∑ k : Fin 1024, P (ix3 (0 : Fin 1) p k) :=
    fun f hf => by rw [hf]; exact block_rowSum P p
  have h0 := hrow Value.ix3_0 (funext fun a => by match a with | ⟨0, _⟩ => rfl)
  have h4 : Value.ix3_4 (ix3 (0 : Fin 1) p q) = ix3 (0 : Fin 1) p q :=
    funext fun a => by match a with | ⟨0, _⟩ => rfl | ⟨1, _⟩ => rfl | ⟨2, _⟩ => rfl
  show FloatOps.mulf _ _ = _
  rw [h0, h4]
  rfl

end Cert.KernelBlock

end
-- ==== Proof.KernelArray.lean ====
/-
  From blocks to the arrays: the kernel's two output arrays are the row normalisations of its two arguments.

  The grid has 16 × 2 points. At point (b, h) every window holds the block of matrix b whose rows are
  512·h … 512·h + 511, with all 1024 columns: block index (b, h, 0), block shape [1, 512, 1024]. An entry (0, p, q) of a
  block is the entry (b, 512·h + p, q) of the array, and, because a block holds whole rows, the row sum the body takes
  inside the block, Σ_k P[0, p, k], is the array's Σ_k x[b, 512·h + p, k]. So what a point writes back is the block of
  the row normalisation of the argument; the 32 blocks tile the output array (row r of matrix b is in the block of the
  point (b, r / 512)); hence each output array ends as the row normalisation of its argument.
-/
import proofs.«114468_j37323265803068_2_alg».proof.Proof.Gen.KernelIdeal.Value
import proofs.«114468_j37323265803068_2_alg».proof.Proof.KernelBlock

noncomputable section

namespace Cert.KernelArray

open Cert.KernelIdeal Cert.KernelIdeal.Gen Idealize.ShloMosaic Idealize.ShloMosaic.TcCoe Idealize.SL.Sem
open Idealize.ShloMosaic.ValueIdx Cert.RowNormalize
open Idealize.ShloMosaic.Pipeline (Dat)

variable (m : (ℓ : Loc nD τ sig) → Buf (Elt Ideal) ℓ) (ρ : Dev nD → PrngReg)

/-- The body's accesses start at the block's origin. -/
theorem origin : (![0, 0, 0] : Fin 3 → Nat) = fun _ => 0 := funext fun a => by fin_cases a <;> rfl

/-- All four windows move together: at every point the two inputs' block indices are the two outputs'. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = win0_2.index t (2 : Fin 3)
    ∧ win0_1.index t (0 : Fin 3) = win0_3.index t (0 : Fin 3) ∧ win0_1.index t (1 : Fin 3) = win0_3.index t (1 : Fin 3)
    ∧ win0_1.index t (2 : Fin 3) = win0_3.index t (2 : Fin 3) :=
  (by decide +kernel : ∀ t : Fin grid0.N, _)

/-- Every (matrix, half) pair is some point's block index, for either output. -/
theorem index_onto2 : ∀ (b : Fin 16) (h : Fin 2), ∃ t : Fin cfg0.N, win0_2.index t = ![b.val, h.val, 0] :=
  (by decide +kernel : ∀ (b : Fin 16) (h : Fin 2), ∃ t : Fin grid0.N, win0_2.index t = ![b.val, h.val, 0])

theorem index_onto3 : ∀ (b : Fin 16) (h : Fin 2), ∃ t : Fin cfg0.N, win0_3.index t = ![b.val, h.val, 0] :=
  (by decide +kernel : ∀ (b : Fin 16) (h : Fin 2), ∃ t : Fin grid0.N, win0_3.index t = ![b.val, h.val, 0])

/-! ## What the body leaves in each output block, from the input blocks -/

/-- The first output's block after the body, at an entry `y`: the guarded reciprocal of the sum of row `y 1` of the first
    input's block, times that block's entry. -/
theorem first_out (x0 x1 : Vec Ideal S1x512x1024 .f32) (y : S1x512x1024.Idx) :
    out0_2 x0 x1 y = guardedInv (∑ k : Fin 1024, x0 (ix3 (0 : Fin 1) (y 1 : Fin 512) k)) * x0 y := by
  obtain ⟨a, p, q, rfl⟩ : ∃ (a : Fin 1) (p : Fin 512) (q : Fin 1024), y = ix3 a p q := ⟨y 0, y 1, y 2, eq_ix3 y⟩
  obtain rfl : a = 0 := Subsingleton.elim _ _
  unfold out0_2
  simp only [View.ld_unit_zero (S := S1x512x1024) origin]
  rw [Value.canon2_eq]
  exact Cert.KernelBlock.first_block x0 p q

/-- The second output's block after the body: the same function of the second input's block. -/
theorem second_out (x0 x1 : Vec Ideal S1x512x1024 .f32) (y : S1x512x1024.Idx) :
    out0_3 x0 x1 y = guardedInv (∑ k : Fin 1024, x1 (ix3 (0 : Fin 1) (y 1 : Fin 512) k)) * x1 y := by
  obtain ⟨a, p, q, rfl⟩ : ∃ (a : Fin 1) (p : Fin 512) (q : Fin 1024), y = ix3 a p q := ⟨y 0, y 1, y 2, eq_ix3 y⟩
  obtain rfl : a = 0 := Subsingleton.elim _ _
  unfold out0_3
  simp only [View.ld_unit_zero (S := S1x512x1024) origin]
  rw [Value.canon3_eq]
  exact Cert.KernelBlock.second_block x1 p q

/-! ## The first output array -/

/-- What point `t` writes back to the first output is block `t` of the row normalisation of the first argument. -/
theorem first_flushed (c : Dev nD) (t : Fin cfg0.N) :
    (dats m 0 c).flushed 2 t = ((cfg0.win 2).blk t).view.read (Elt Ideal) (rowNormalize (V m c main_arg0)) := by
  show (cfg0.win 2).cut (grid0.coords t) ((dats m 0 c).after 2 t) = _
  rw [after0_2]
  obtain ⟨e0, e1, e2, -, -, -⟩ := index_facts t
  funext j
  refine (first_out (iblk m c 0 t) (iblk m c 1 t) j).trans ?_
  show guardedInv (∑ k : Fin 1024, V m c main_arg0 (((cfg0.win 0).blk t).view.emb (ix3 (0 : Fin 1) (j 1 : Fin 512) k)))
        * V m c main_arg0 (((cfg0.win 0).blk t).view.emb j)
      = guardedInv (∑ k : Fin 1024, V m c main_arg0 (ix3 ((((cfg0.win 2).blk t).view.emb j) 0 : Fin 16) ((((cfg0.win 2).blk t).view.emb j) 1 : Fin 1024) k))
        * V m c main_arg0 (((cfg0.win 2).blk t).view.emb j)
  have hrow : ∀ k : Fin 1024, ((cfg0.win 0).blk t).view.emb (ix3 (0 : Fin 1) (j 1 : Fin 512) k)
      = ix3 ((((cfg0.win 2).blk t).view.emb j) 0 : Fin 16) ((((cfg0.win 2).blk t).view.emb j) 1 : Fin 1024) k := by
    intro k; funext a; apply Fin.ext
    match a with
    | ⟨0, _⟩ => show win0_0.index t (0 : Fin 3) * 1 + 1 * 0 = win0_2.index t (0 : Fin 3) * 1 + 1 * (j 0).val; have hj : (j 0).val < 1 := (j 0).isLt; omega
    | ⟨1, _⟩ => show win0_0.index t (1 : Fin 3) * 512 + 1 * (j 1).val = win0_2.index t (1 : Fin 3) * 512 + 1 * (j 1).val; omega
    | ⟨2, _⟩ => show win0_0.index t (2 : Fin 3) * 1024 + 1 * k.val = k.val; have h2 : win0_2.index t (2 : Fin 3) * 1024 + 1 * (j 2).val < 1024 := (((cfg0.win 2).blk t).view.emb j 2).isLt; omega
  have hent : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 1024 + 1 * (j 2).val = win0_2.index t (2 : Fin 3) * 1024 + 1 * (j 2).val; omega
  rw [hent]
  simp only [hrow]
  rfl

/-- An index of the array is in point `t`'s block of the first output iff each coordinate is in the block's range. -/
theorem mem_first_block (t : Fin cfg0.N) (i : S16x1024x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v0_0).slice (win0_2.rect t)).set ↔ _
  rw [View.set_slice_whole, Rect.mem_set_unit]
  exact Iff.rfl

/-- The blocks tile the first output: entry (b, r, q) is in the block of the point with index (b, r / 512, 0). -/
theorem first_cover (i : S16x1024x1024.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 1024 := (i 2).isLt
  obtain ⟨t, ht⟩ := index_onto2 ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_first_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- The first output array after the run is the row normalisation of the first argument. -/
theorem first_final (c : Dev nD) :
    (dats m 0 c).arrAt 2 cfg0.N = rowNormalize (m ((c : Thread nD τ).loc main_arg0)) :=
  (dats m 0 c).arrAt_eq_of_cover 2 (rowNormalize (V m c main_arg0)) (fun t _ => first_flushed m c t) first_cover

/-! ## The second output array -/

/-- What point `t` writes back to the second output is block `t` of the row normalisation of the second argument. -/
theorem second_flushed (c : Dev nD) (t : Fin cfg0.N) :
    (dats m 0 c).flushed 3 t = ((cfg0.win 3).blk t).view.read (Elt Ideal) (rowNormalize (V m c main_arg1)) := by
  show (cfg0.win 3).cut (grid0.coords t) ((dats m 0 c).after 3 t) = _
  rw [after0_3]
  obtain ⟨-, -, -, e0, e1, e2⟩ := index_facts t
  funext j
  refine (second_out (iblk m c 0 t) (iblk m c 1 t) j).trans ?_
  show guardedInv (∑ k : Fin 1024, V m c main_arg1 (((cfg0.win 1).blk t).view.emb (ix3 (0 : Fin 1) (j 1 : Fin 512) k)))
        * V m c main_arg1 (((cfg0.win 1).blk t).view.emb j)
      = guardedInv (∑ k : Fin 1024, V m c main_arg1 (ix3 ((((cfg0.win 3).blk t).view.emb j) 0 : Fin 16) ((((cfg0.win 3).blk t).view.emb j) 1 : Fin 1024) k))
        * V m c main_arg1 (((cfg0.win 3).blk t).view.emb j)
  have hrow : ∀ k : Fin 1024, ((cfg0.win 1).blk t).view.emb (ix3 (0 : Fin 1) (j 1 : Fin 512) k)
      = ix3 ((((cfg0.win 3).blk t).view.emb j) 0 : Fin 16) ((((cfg0.win 3).blk t).view.emb j) 1 : Fin 1024) k := by
    intro k; funext a; apply Fin.ext
    match a with
    | ⟨0, _⟩ => show win0_1.index t (0 : Fin 3) * 1 + 1 * 0 = win0_3.index t (0 : Fin 3) * 1 + 1 * (j 0).val; have hj : (j 0).val < 1 := (j 0).isLt; omega
    | ⟨1, _⟩ => show win0_1.index t (1 : Fin 3) * 512 + 1 * (j 1).val = win0_3.index t (1 : Fin 3) * 512 + 1 * (j 1).val; omega
    | ⟨2, _⟩ => show win0_1.index t (2 : Fin 3) * 1024 + 1 * k.val = k.val; have h2 : win0_3.index t (2 : Fin 3) * 1024 + 1 * (j 2).val < 1024 := (((cfg0.win 3).blk t).view.emb j 2).isLt; omega
  have hent : ((cfg0.win 1).blk t).view.emb j = ((cfg0.win 3).blk t).view.emb j := by
    funext a; apply Fin.ext
    match a with
    | ⟨0, _⟩ => show win0_1.index t (0 : Fin 3) * 1 + 1 * (j 0).val = win0_3.index t (0 : Fin 3) * 1 + 1 * (j 0).val; omega
    | ⟨1, _⟩ => show win0_1.index t (1 : Fin 3) * 512 + 1 * (j 1).val = win0_3.index t (1 : Fin 3) * 512 + 1 * (j 1).val; omega
    | ⟨2, _⟩ => show win0_1.index t (2 : Fin 3) * 1024 + 1 * (j 2).val = win0_3.index t (2 : Fin 3) * 1024 + 1 * (j 2).val; omega
  rw [hent]
  simp only [hrow]
  rfl

/-- An index of the array is in point `t`'s block of the second output iff each coordinate is in the block's range. -/
theorem mem_second_block (t : Fin cfg0.N) (i : S16x1024x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v0_1).slice (win0_3.rect t)).set ↔ _
  rw [View.set_slice_whole, Rect.mem_set_unit]
  exact Iff.rfl

/-- The blocks tile the second output likewise. -/
theorem second_cover (i : S16x1024x1024.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 1024 := (i 2).isLt
  obtain ⟨t, ht⟩ := index_onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_second_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The second output array after the run is the row normalisation of the second argument. -/
theorem second_final (c : Dev nD) :
    (dats m 0 c).arrAt 3 cfg0.N = rowNormalize (m ((c : Thread nD τ).loc main_arg1)) :=
  (dats m 0 c).arrAt_eq_of_cover 3 (rowNormalize (V m c main_arg1)) (fun t _ => second_flushed m c t) second_cover

/-! ## The run -/

/-- Every weakly fair execution of the kernel's program terminates with the two output arrays at the row normalisations
    of the two arguments, and the arguments unchanged. -/
theorem run : θ_run defs (onTc (τ := τ) (main (F := Ideal))) ⟨m, fun _ => 0, ρ⟩ fun r => ∀ c : Dev nD,
      r.2.mem ((c : Thread nD τ).loc main_v0_0) = rowNormalize (m ((c : Thread nD τ).loc main_arg0))
      ∧ r.2.mem ((c : Thread nD τ).loc main_v0_1) = rowNormalize (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (first_final m c), (h c).2.1.trans (second_final m c),
      (h c).2.2.1, (h c).2.2.2⟩)
    (Value.run_blocks m ρ)

end Cert.KernelArray

end
-- ==== Proof.lean ====
/-
  Row normalisation of two batches of matrices: a tiled kernel against the whole-array computation.

  Both programs take two arrays x of shape [16, 1024, 1024] and return, for each, the array whose entry (b, r, c) is

      g(1 / Σ_k x[b, r, k]) · x[b, r, c],

  every row scaled by the reciprocal of its sum, where g sends a reciprocal that is not a finite number to zero. The
  reference computes this on whole arrays (sum along the last axis, reciprocal, the guard, broadcast along the columns,
  product). The kernel walks a 16 × 2 grid; at a point it holds 512 whole rows of one matrix, and does the same steps
  inside that block. Read as exact operations on the extended reals the two agree entry by entry, with no condition on
  the inputs:

    * a block holds whole rows, so the sum the kernel takes inside a block is the row's sum in the array, and both
      programs sum the same 1024 entries (the reference from an explicit zero, the additive unit);
    * the quotient, the absolute value, the comparisons and the product are the same functions in both programs; the
      one spelling difference is the test "q ≠ q", ordered in the kernel and unordered in the reference, and on a linear
      order these are one test;
    * the 32 blocks tile each output array.

  So each output of either program is `rowNormalize` of the corresponding argument (RowNormalize.lean): the reference by
  reading its operations one at a time (ReferenceRows.lean), the kernel block by block (KernelBlock.lean) and then over
  the grid (KernelArray.lean). The kernel's idealisation rewrote nothing, so there is nothing to preserve beyond the
  program's own text; the three programs' runs terminate with their arguments unchanged by their generated frames.
-/
import proofs.«114468_j37323265803068_2_alg».proof.Defs
import proofs.«114468_j37323265803068_2_alg».proof.Proof.Gen.Kernel
import proofs.«114468_j37323265803068_2_alg».proof.Proof.Gen.Kernel.Skeleton
import proofs.«114468_j37323265803068_2_alg».proof.Proof.Gen.Kernel.Launch
import proofs.«114468_j37323265803068_2_alg».proof.Proof.Gen.Kernel.Points
import proofs.«114468_j37323265803068_2_alg».proof.Proof.Gen.Kernel.Frame
import proofs.«114468_j37323265803068_2_alg».proof.Proof.Gen.KernelIdeal
import proofs.«114468_j37323265803068_2_alg».proof.Proof.Gen.KernelIdeal.Skeleton
import proofs.«114468_j37323265803068_2_alg».proof.Proof.Gen.KernelIdeal.Launch
import proofs.«114468_j37323265803068_2_alg».proof.Proof.Gen.KernelIdeal.Points
import proofs.«114468_j37323265803068_2_alg».proof.Proof.Gen.KernelIdeal.Frame
import proofs.«114468_j37323265803068_2_alg».proof.Proof.Gen.ReferenceIdeal
import proofs.«114468_j37323265803068_2_alg».proof.Proof.Gen.Pre_finite_inputs
import proofs.«114468_j37323265803068_2_alg».proof.Proof.Gen.KernelIdeal.Value
import proofs.«114468_j37323265803068_2_alg».proof.Proof.Gen.ReferenceIdeal.Run
import proofs.«114468_j37323265803068_2_alg».proof.Proof.Gen.ReferenceIdeal.Read
import proofs.«114468_j37323265803068_2_alg».proof.Proof.RowNormalize
import proofs.«114468_j37323265803068_2_alg».proof.Proof.ReferenceRows
import proofs.«114468_j37323265803068_2_alg».proof.Proof.KernelArray
import Idealize.ShloMosaic.Adequacy
import Idealize.ShloMosaic.Init

noncomputable section

namespace Cert.Proof

open Idealize.ShloMosaic Idealize.SL.Sem Cert.Kernel

/-- The kernel as printed terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Reading the kernel over the extended reals rewrote none of its operations. -/
theorem preserves : Cert.preserves_Kernel_KernelIdeal := trivial

/-- From memories agreeing on the two arguments, both programs end with each result at the row normalisation of the
    corresponding argument. -/
theorem algebraic : Cert.algebraic_KernelIdeal_ReferenceIdeal := by
  intro m ρ m' ρ' _ hagree
  refine ⟨_, _, Cert.KernelArray.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · exact (Cert.ReferenceIdeal.Read.val_main_v10_eq _).trans
      ((Cert.ReferenceRows.first_eq _).trans (congrArg Cert.RowNormalize.rowNormalize (hagree c).1))
  · exact (Cert.ReferenceIdeal.Read.val_main_v21_eq _).trans
      ((Cert.ReferenceRows.second_eq _).trans (congrArg Cert.RowNormalize.rowNormalize (hagree c).2))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
